-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v51) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S1x16 : Shape := ⟨2, ![1, 16]⟩
abbrev S2x256 : Shape := ⟨2, ![2, 256]⟩
abbrev S256 : Shape := ⟨1, ![256]⟩
abbrev S256x256 : Shape := ⟨2, ![256, 256]⟩
abbrev S16x64 : Shape := ⟨2, ![16, 64]⟩
abbrev S64 : Shape := ⟨1, ![64]⟩
abbrev S64x64 : Shape := ⟨2, ![64, 64]⟩
abbrev S320x256 : Shape := ⟨2, ![320, 256]⟩
abbrev S256x4 : Shape := ⟨2, ![256, 4]⟩
abbrev S4 : Shape := ⟨1, ![4]⟩
abbrev S_ : Shape := ⟨0, ![]⟩

class Facts : Prop where
  bcast_S_S1x16 : S_.BroadcastsInDim S1x16 (![] : Fin 0 → Fin S1x16.rank)
  reducesTo_S1x16_S_d0_1 : S1x16.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S320x256 : S_.BroadcastsInDim S320x256 (![] : Fin 0 → Fin S320x256.rank)
  reducesTo_S320x256_S_d0_1 : S320x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg13 : FVec F S256x4 .f32) (main_arg14 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x4 .f32 := Host.absf main_arg13
  let main_cst_20 : FVec F S_ .f32 := constant S_ .f32 0x7F800000#32
  let main_v55 : FVec F S256x4 .f32 := broadcastInDim S256x4 ![] bcast_S_S256x4 main_cst_20
  let main_v56 : IVec S256x4 1 := cmpf .olt main_v54 main_v55
  let main_c_21 : IVec S_ 1 := constantI S_ 1 1#1
  let main_v57 : IVec S_ 1 := (fun x v => Host.reduce IntOp.andi x v reducesTo_S256x4_S_d0_1 h_S_) main_v56 main_c_21
  let main_v58 : IVec S_ 1 := andi main_v53 main_v57
  let main_v59 : FVec F S4 .f32 := Host.absf main_arg14
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg9 : FVec F S64x64 .f32) (main_arg10 : FVec F S64 .f32) (main_arg11 : FVec F S320x256 .f32) (main_arg12 : FVec F S256 .f32) (main_arg13 : FVec F S256x4 .f32) (main_arg14 : FVec F S4 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S320x256 .f32 := Host.absf main_arg11
  let main_cst_16 : FVec F S_ .f32 := constant S_ .f32 0x7F800000#32
  let main_v45 : FVec F S320x256 .f32 := broadcastInDim S320x256 ![] bcast_S_S320x256 main_cst_16
  let main_v46 : IVec S320x256 1 := cmpf .olt main_v44 main_v45
  let main_c_17 : IVec S_ 1 := constantI S_ 1 1#1
  let main_v47 : IVec S_ 1 := (fun x v => Host.reduce IntOp.andi x v reducesTo_S320x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S256 .f32) (main_arg7 : FVec F S16x64 .f32) (main_arg8 : FVec F S64 .f32) (main_arg9 : FVec F S64x64 .f32) (main_arg10 : FVec F S64 .f32) (main_arg11 : FVec F S320x256 .f32) (main_arg12 : FVec F S256 .f32) (main_arg13 : FVec F S256x4 .f32) (main_arg14 : FVec F S4 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S16x64 .f32 := Host.absf main_arg7
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S800000 32) (main_arg1 : IVec S800000 32) (main_arg2 : FVec F S1x16 .f32) (main_arg3 : FVec F S2x256 .f32) (main_arg4 : FVec F S256 .f32) (main_arg5 : FVec F S256x256 .f32) (main_arg6 : FVec F S256 .f32) (main_arg7 : FVec F S16x64 .f32) (main_arg8 : FVec F S64 .f32) (main_arg9 : FVec F S64x64 .f32) (main_arg10 : FVec F S64 .f32) (main_arg11 : FVec F S320x256 .f32) (main_arg12 : FVec F S256 .f32) (main_arg13 : FVec F S256x4 .f32) (main_arg14 : FVec F S4 .f32) : IVec S_ 1 :=
  let main_v0 : FVec F S1x16 .f32 := Host.absf main_arg2
  let main_cst : FVec F S_ .f32 := constant S_ .f32 0x7F800000#32
  let main_v1 : FVec F S1x16 .f32 := broadcastInDim S1x16 ![] bcast_S_S1x16 main_cst
  let main_v2 : IVec S1x16 1 := cmpf .olt main_v0 main_v1
  let main_c : IVec S_ 1 := constantI S_ 1 1#1
  let main_v3 : IVec S_ 1 := (fun x v => Host.reduce IntOp.andi x v reducesTo_S1x16_S_d0_1 h_S_) main_v2 main_c
  let main_v4 : FVec F S2x256 .f32 := Host.absf main_arg3
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S800000 : Shape := ⟨1, ![800000]⟩
abbrev S1x16 : Shape := ⟨2, ![1, 16]⟩
abbrev S2x256 : Shape := ⟨2, ![2, 256]⟩
abbrev S256 : Shape := ⟨1, ![256]⟩
abbrev S256x256 : Shape := ⟨2, ![256, 256]⟩
abbrev S16x64 : Shape := ⟨2, ![16, 64]⟩
abbrev S64 : Shape := ⟨1, ![64]⟩
abbrev S64x64 : Shape := ⟨2, ![64, 64]⟩
abbrev S320x256 : Shape := ⟨2, ![320, 256]⟩
abbrev S256x4 : Shape := ⟨2, ![256, 4]⟩
abbrev S4 : Shape := ⟨1, ![4]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x2 : Shape := ⟨2, ![50000, 2]⟩
abbrev S800000x2 : Shape := ⟨2, ![800000, 2]⟩
abbrev S50000x256 : Shape := ⟨2, ![50000, 256]⟩
abbrev S1x256 : Shape := ⟨2, ![1, 256]⟩
abbrev S800000x256 : Shape := ⟨2, ![800000, 256]⟩
abbrev S5000x256 : Shape := ⟨2, ![5000, 256]⟩
abbrev S1x64 : Shape := ⟨2, ![1, 64]⟩
abbrev S1x320 : Shape := ⟨2, ![1, 320]⟩
abbrev S1x4 : Shape := ⟨2, ![1, 4]⟩

abbrev nBuf : Space → Nat
  | .hbm => 82
  | .vmem => 6
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S1x16, .f32⟩
  | .hbm, ⟨3, _⟩ => ⟨S2x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S320x256, .f32⟩
  | .hbm, ⟨12, _⟩ => ⟨S256, .f32⟩
  | .hbm, ⟨13, _⟩ => ⟨S256x4, .f32⟩
  | .hbm, ⟨14, _⟩ => ⟨S4, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S50000x2, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x2, .f32⟩
  | .hbm, ⟨37, _⟩ => ⟨S_, .f32⟩
  | .hbm, ⟨38, _⟩ => ⟨S50000x2, .f32⟩
  | .hbm, ⟨39, _⟩ => ⟨S800000x1, .i32⟩
  | .hbm, ⟨40, _⟩ => ⟨S50000x2, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S1x256, .f32⟩
  | .hbm, ⟨62, _⟩ => ⟨S1x256, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S_, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x320, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S_, .f32⟩
  | .hbm, ⟨77, _⟩ => ⟨S1x256, .f32⟩
  | .hbm, ⟨78, _⟩ => ⟨S1x256, .f32⟩
  | .hbm, ⟨79, _⟩ => ⟨S1x4, .f32⟩
  | .hbm, ⟨80, _⟩ => ⟨S1x4, .f32⟩
  | .hbm, ⟨81, _⟩ => ⟨S1x4, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_cst : Ref sig .tc := ⟨.hbm, 45, rfl⟩
abbrev main_call0_v0 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_cst : Ref sig .tc := ⟨.hbm, 76, rfl⟩
abbrev main_call2_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  bcast_S_S50000x2 : S_.BroadcastsInDim S50000x2 (![] : Fin 0 → Fin S50000x2.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x256_S5000x256 : S1x256.Broadcasts S5000x256
  reduces_S5000x256_S256 : S5000x256.Reduces [0] S256
  bcast_S64_S1x64_1 : S64.BroadcastsInDim S1x64 (![1] : Fin 1 → Fin S1x64.rank)
  bcast_S_S1x64 : S_.BroadcastsInDim S1x64 (![] : Fin 0 → Fin S1x64.rank)
  concatenates_S1x256_S1x64_S1x320_d1 : Shape.Concatenates [S1x256, S1x64] S1x320 1
  bcast_S_S1x256 : S_.BroadcastsInDim S1x256 (![] : Fin 0 → Fin S1x256.rank)
  bcast_S4_S1x4_1 : S4.BroadcastsInDim S1x4 (![1] : Fin 1 → Fin S1x4.rank)
  scatter_S50000_S800000x1_S800000_n_0_0_1_wf : ScatterDims.WF S50000 S800000x1 S800000 [] [0] [0] 1
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S50000x2_S2x256_S50000x256_1_0_0_1_n_n_wf : DotDims.WF S50000x2 S2x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S1x16_S16x64_S1x64_1_0_0_1_n_n_wf : DotDims.WF S1x16 S16x64 S1x64 [1] [0] [0] [1] [] []
  dot_S1x64_S64x64_S1x64_1_0_0_1_n_n_wf : DotDims.WF S1x64 S64x64 S1x64 [1] [0] [0] [1] [] []
  dot_S1x320_S320x256_S1x256_1_0_0_1_n_n_wf : DotDims.WF S1x320 S320x256 S1x256 [1] [0] [0] [1] [] []
  dot_S1x256_S256x4_S1x4_1_0_0_1_n_n_wf : DotDims.WF S1x256 S256x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S50000x2_S2x256_S50000x256_1_0_0_1_n_n : DotDims S50000x2 S2x256 S50000x256 where
  lhsContracting := [1]
  rhsContracting := [0]
  lhsNonContracting := [0]
  rhsNonContracting := [1]
  lhsBatch := []
  rhsBatch := []
  wf := dot_S50000x2_S2x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S1x16_S16x64_S1x64_1_0_0_1_n_n : DotDims S1x16 S16x64 S1x64 where
  lhsContracting := [1]
  rhsContracting := [0]
  lhsNonContracting := [0]
  rhsNonContracting := [1]
  lhsBatch := []
  rhsBatch := []
  wf := dot_S1x16_S16x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x320_S320x256_S1x256_1_0_0_1_n_n : DotDims S1x320 S320x256 S1x256 where
  lhsContracting := [1]
  rhsContracting := [0]
  lhsNonContracting := [0]
  rhsNonContracting := [1]
  lhsBatch := []
  rhsBatch := []
  wf := dot_S1x320_S320x256_S1x256_1_0_0_1_n_n_wf
def dot_S1x256_S256x4_S1x4_1_0_0_1_n_n : DotDims S1x256 S256x4 S1x4 where
  lhsContracting := [1]
  rhsContracting := [0]
  lhsNonContracting := [0]
  rhsNonContracting := [1]
  lhsBatch := []
  rhsBatch := []
  wf := dot_S1x256_S256x4_S1x4_1_0_0_1_n_n_wf

abbrev win0_0 : Pipeline.Window sig grid0 :=
  Pipeline.Window.ofSpec (Memref.whole main_v34) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S800000 : Shape := ⟨1, ![800000]⟩
abbrev S1x16 : Shape := ⟨2, ![1, 16]⟩
abbrev S2x256 : Shape := ⟨2, ![2, 256]⟩
abbrev S256 : Shape := ⟨1, ![256]⟩
abbrev S256x256 : Shape := ⟨2, ![256, 256]⟩
abbrev S16x64 : Shape := ⟨2, ![16, 64]⟩
abbrev S64 : Shape := ⟨1, ![64]⟩
abbrev S64x64 : Shape := ⟨2, ![64, 64]⟩
abbrev S320x256 : Shape := ⟨2, ![320, 256]⟩
abbrev S256x4 : Shape := ⟨2, ![256, 4]⟩
abbrev S4 : Shape := ⟨1, ![4]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x2 : Shape := ⟨2, ![50000, 2]⟩
abbrev S800000x2 : Shape := ⟨2, ![800000, 2]⟩
abbrev S50000x256 : Shape := ⟨2, ![50000, 256]⟩
abbrev S1x256 : Shape := ⟨2, ![1, 256]⟩
abbrev S800000x256 : Shape := ⟨2, ![800000, 256]⟩
abbrev S1x64 : Shape := ⟨2, ![1, 64]⟩
abbrev S1x320 : Shape := ⟨2, ![1, 320]⟩
abbrev S1x4 : Shape := ⟨2, ![1, 4]⟩

abbrev nBuf : Space → Nat
  | .hbm => 90
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S1x16, .f32⟩
  | .hbm, ⟨3, _⟩ => ⟨S2x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S320x256, .f32⟩
  | .hbm, ⟨12, _⟩ => ⟨S256, .f32⟩
  | .hbm, ⟨13, _⟩ => ⟨S256x4, .f32⟩
  | .hbm, ⟨14, _⟩ => ⟨S4, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S50000x2, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x2, .f32⟩
  | .hbm, ⟨37, _⟩ => ⟨S_, .f32⟩
  | .hbm, ⟨38, _⟩ => ⟨S50000x2, .f32⟩
  | .hbm, ⟨39, _⟩ => ⟨S800000x1, .i32⟩
  | .hbm, ⟨40, _⟩ => ⟨S50000x2, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S256, .f32⟩
  | .hbm, ⟨70, _⟩ => ⟨S1x256, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S_, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x320, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S_, .f32⟩
  | .hbm, ⟨85, _⟩ => ⟨S1x256, .f32⟩
  | .hbm, ⟨86, _⟩ => ⟨S1x256, .f32⟩
  | .hbm, ⟨87, _⟩ => ⟨S1x4, .f32⟩
  | .hbm, ⟨88, _⟩ => ⟨S1x4, .f32⟩
  | .hbm, ⟨89, _⟩ => ⟨S1x4, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_cst : Ref sig .tc := ⟨.hbm, 45, rfl⟩
abbrev main_call0_v0 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call2_cst : Ref sig .tc := ⟨.hbm, 74, rfl⟩
abbrev main_call2_v0 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call3_cst : Ref sig .tc := ⟨.hbm, 84, rfl⟩
abbrev main_call3_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  bcast_S_S50000x2 : S_.BroadcastsInDim S50000x2 (![] : Fin 0 → Fin S50000x2.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  concatenates_S1x256_S1x64_S1x320_d1 : Shape.Concatenates [S1x256, S1x64] S1x320 1
  bcast_S_S1x256 : S_.BroadcastsInDim S1x256 (![] : Fin 0 → Fin S1x256.rank)
  bcast_S4_S1x4_1 : S4.BroadcastsInDim S1x4 (![1] : Fin 1 → Fin S1x4.rank)
  scatter_S50000_S800000x1_S800000_n_0_0_1_wf : ScatterDims.WF S50000 S800000x1 S800000 [] [0] [0] 1
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S50000x2_S2x256_S50000x256_1_0_0_1_n_n_wf : DotDims.WF S50000x2 S2x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S1x16_S16x64_S1x64_1_0_0_1_n_n_wf : DotDims.WF S1x16 S16x64 S1x64 [1] [0] [0] [1] [] []
  dot_S1x64_S64x64_S1x64_1_0_0_1_n_n_wf : DotDims.WF S1x64 S64x64 S1x64 [1] [0] [0] [1] [] []
  dot_S1x320_S320x256_S1x256_1_0_0_1_n_n_wf : DotDims.WF S1x320 S320x256 S1x256 [1] [0] [0] [1] [] []
  dot_S1x256_S256x4_S1x4_1_0_0_1_n_n_wf : DotDims.WF S1x256 S256x4 S1x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S50000x2_S2x256_S50000x256_1_0_0_1_n_n : DotDims S50000x2 S2x256 S50000x256 where
  lhsContracting := [1]
  rhsContracting := [0]
  lhsNonContracting := [0]
  rhsNonContracting := [1]
  lhsBatch := []
  rhsBatch := []
  wf := dot_S50000x2_S2x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S1x16_S16x64_S1x64_1_0_0_1_n_n : DotDims S1x16 S16x64 S1x64 where
  lhsContracting := [1]
  rhsContracting := [0]
  lhsNonContracting := [0]
  rhsNonContracting := [1]
  lhsBatch := []
  rhsBatch := []
  wf := dot_S1x16_S16x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x320_S320x256_S1x256_1_0_0_1_n_n : DotDims S1x320 S320x256 S1x256 where
  lhsContracting := [1]
  rhsContracting := [0]
  lhsNonContracting := [0]
  rhsNonContracting := [1]
  lhsBatch := []
  rhsBatch := []
  wf := dot_S1x320_S320x256_S1x256_1_0_0_1_n_n_wf
def dot_S1x256_S256x4_S1x4_1_0_0_1_n_n : DotDims S1x256 S256x4 S1x4 where
  lhsContracting := [1]
  rhsContracting := [0]
  lhsNonContracting := [0]
  rhsNonContracting := [1]
  lhsBatch := []
  rhsBatch := []
  wf := dot_S1x256_S256x4_S1x4_1_0_0_1_n_n_wf

class Facts : Prop extends Facts₀ where

variable [Facts]
-- ==== Proof.Accumulate.lean ====
/-
  The running total the kernel carries from tile to tile, for any float instance.

  The kernel visits ten tiles of 5000 rows in order. A scratch row of 256 totals is carried between
  tiles: at the first tile it is set to zero and the tile's column sums are added; at every later tile the
  tile's column sums are added to what the tile before left. After each tile the scratch row is copied to
  the output block, whose position never changes, so the output array is written back once, after the
  last tile, and then holds the total over all ten tiles.
-/
import proofs.«111640_j2396591751762_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At a later tile the scratch ends at the old total plus this tile's column sums. -/
theorem scratch_later (c : Dev nD) (i : grid0.Coords) (a1 : Memref sig .tc .vmem S5000x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc : ¬cond0_0 i)
    (x0 : Vec F S5000x256 .f32) (x1 : Vec F S256x256 .f32) (x2 xs : Vec F S1x256 .f32) :
    sout0_B_0 c i a1 h1 a2 h2 a3 h3 a4 h4 a5 h5 hc x0 x1 x2 xs = k0_pay2 x0 x1 x2 xs := by
  unfold sout0_B_0
  rw [View.read_writes_eq_canon _ _ _ (scover0_B_0 c i a1 h1 a2 h2 a3 h3 a4 h4 a5 h5 hc x0 x1 x2 xs)]
  unfold kernelRun0_B
  dsimp only
  try sl_unfold_words
  rw [View.canon_unit_zero hz]
  simp only [View.readAt_eq_ld, h1.read_unread, h2.read_unread, h3.read_unread, h5.read_unread, View.ld_unit_zero (S := S5000x256) hz, View.ld_unit_zero (S := S256x256) hz, View.ld_unit_zero (S := S1x256) hz]

/-- At a later tile the output block is a copy of that new scratch row. -/
theorem out_later (c : Dev nD) (i : grid0.Coords) (a1 : Memref sig .tc .vmem S5000x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc : ¬cond0_0 i)
    (x0 : Vec F S5000x256 .f32) (x1 : Vec F S256x256 .f32) (x2 xs : Vec F S1x256 .f32) :
    out0_B_3 c i a1 h1 a2 h2 a3 h3 a4 h4 a5 h5 hc x0 x1 x2 xs = k0_pay2 x0 x1 x2 xs := by
  unfold out0_B_3
  rw [View.read_writes_eq_canon _ _ _ (cover0_B_3 c i a1 h1 a2 h2 a3 h3 a4 h4 a5 h5 hc x0 x1 x2 xs)]
  unfold kernelRun0_B
  dsimp only
  try sl_unfold_words
  rw [View.canon_unit_zero hz, View.readCov_unit_zero (S := S1x256) _ hz]
  simp only [View.readAt_eq_ld, h1.read_unread, h2.read_unread, h3.read_unread, h5.read_unread, View.ld_unit_zero (S := S5000x256) hz, View.ld_unit_zero (S := S256x256) hz, View.ld_unit_zero (S := S1x256) hz]

/-- At the first tile the scratch is zeroed first, so it ends at zero plus this tile's column sums. -/
theorem scratch_first (c : Dev nD) (i : grid0.Coords) (a1 : Memref sig .tc .vmem S5000x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc : cond0_0 i)
    (x0 : Vec F S5000x256 .f32) (x1 : Vec F S256x256 .f32) (x2 : Vec F S1x256 .f32) :
    sout0_A_0 c i a1 h1 a2 h2 a3 h3 a4 h4 a5 h5 hc x0 x1 x2 = k0_pay2 x0 x1 x2 k0_pay1 := by
  unfold sout0_A_0
  rw [View.read_writes_eq_canon _ _ _ (scover0_A_0 c i a1 h1 a2 h2 a3 h3 a4 h4 a5 h5 hc x0 x1 x2)]
  unfold kernelRun0_A
  dsimp only
  try sl_unfold_words
  rw [View.canon_cons_unit_zero (S := S1x256) hz, View.readCov_unit_zero (S := S1x256) _ hz]
  simp only [View.readAt_eq_ld, h1.read_unread, h2.read_unread, h3.read_unread, h5.read_unread, View.ld_unit_zero (S := S5000x256) hz, View.ld_unit_zero (S := S256x256) hz, View.ld_unit_zero (S := S1x256) hz]

/-- At the first tile the output block is a copy of that scratch row. -/
theorem out_first (c : Dev nD) (i : grid0.Coords) (a1 : Memref sig .tc .vmem S5000x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc : cond0_0 i)
    (x0 : Vec F S5000x256 .f32) (x1 : Vec F S256x256 .f32) (x2 : Vec F S1x256 .f32) :
    out0_A_3 c i a1 h1 a2 h2 a3 h3 a4 h4 a5 h5 hc x0 x1 x2 = k0_pay2 x0 x1 x2 k0_pay1 := by
  unfold out0_A_3
  rw [View.read_writes_eq_canon _ _ _ (cover0_A_3 c i a1 h1 a2 h2 a3 h3 a4 h4 a5 h5 hc x0 x1 x2)]
  unfold kernelRun0_A
  dsimp only
  try sl_unfold_words
  rw [View.canon_unit_zero hz, View.readCov_cons_toLoadRect, View.readCov_unit_zero (S := S1x256) _ hz]
  simp only [View.readAt_eq_ld, h1.read_unread, h2.read_unread, h3.read_unread, h5.read_unread, View.ld_unit_zero (S := S5000x256) hz, View.ld_unit_zero (S := S256x256) hz, View.ld_unit_zero (S := S1x256) hz]

/-- The running total after tile `n`: the tile's column sums added to the total after tile `n - 1`, from the
    zero row at the first tile. -/
def total (c : Dev nD) : (n : ℕ) → n < cfg0.N → Vec F S1x256 .f32
  | 0, h => k0_pay2 (iblk m c 0 ⟨0, h⟩) (iblk m c 1 ⟨0, h⟩) (iblk m c 2 ⟨0, h⟩) k0_pay1
  | n + 1, h => k0_pay2 (iblk m c 0 ⟨n + 1, h⟩) (iblk m c 1 ⟨n + 1, h⟩) (iblk m c 2 ⟨n + 1, h⟩)
      (total c n (Nat.lt_of_succ_lt h))

set_option maxHeartbeats 4000000 in
/-- At the first tile, output block and scratch row both hold zero plus that tile's column sums. -/
theorem outsAt_first (c : Dev nD) (t : Fin cfg0.N) (h0 : t.val % 10 = 0) :
    outsAt0 m c t.val t.isLt
      = (k0_pay2 (iblk m c 0 t) (iblk m c 1 t) (iblk m c 2 t) k0_pay1, k0_pay2 (iblk m c 0 t) (iblk m c 1 t) (iblk m c 2 t) k0_pay1) := by
  rw [outsAt0_A m c t h0]
  exact Prod.ext
    (out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))
    (scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t))

set_option maxHeartbeats 4000000 in
/-- At a later tile both hold the tile's column sums added to what the scratch held after the tile before. -/
theorem outsAt_later (c : Dev nD) (t : Fin cfg0.N) (h0 : ¬t.val % 10 = 0) :
    outsAt0 m c t.val t.isLt
      = (k0_pay2 (iblk m c 0 t) (iblk m c 1 t) (iblk m c 2 t) (outsAt0 m c (t.val - 1) (Nat.lt_of_le_of_lt (Nat.sub_le _ _) t.isLt)).2,
         k0_pay2 (iblk m c 0 t) (iblk m c 1 t) (iblk m c 2 t) (outsAt0 m c (t.val - 1) (Nat.lt_of_le_of_lt (Nat.sub_le _ _) t.isLt)).2) := by
  rw [outsAt0_B m c t h0]
  exact Prod.ext
    (out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2)
    (scratch_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2)

set_option maxHeartbeats 4000000 in
/-- After tile `n` both the output block and the scratch row hold the running total: by induction on the tile. -/
theorem outsAt_eq (c : Dev nD) : ∀ (n : ℕ) (h : n < cfg0.N), outsAt0 m c n h = (total m c n h, total m c n h)
  | 0, h => outsAt_first m c ⟨0, h⟩ rfl
  | n + 1, h => by
    have hN : cfg0.N = 10 := N_0
    have hB : ¬(⟨n + 1, h⟩ : Fin cfg0.N).val % 10 = 0 := by dsimp only; omega
    have ih := outsAt_eq c n (Nat.lt_of_succ_lt h)
    rw [outsAt_later m c ⟨n + 1, h⟩ hB]
    show (k0_pay2 _ _ _ (outsAt0 m c n _).2, k0_pay2 _ _ _ (outsAt0 m c n _).2) = _
    rw [ih]
    all_goals rfl

/-- The total after the last tile, as contents of the result array (its one block is the whole array). -/
abbrev result (c : Dev nD) : Buf (Elt F) ((c : Thread nD τ).loc main_v36) :=
  total m c 9 (by rw [show cfg0.N = 10 from N_0]; decide)

set_option maxHeartbeats 4000000 in
/-- The one write-back, after the last tile, writes it: block (0, 0) of the [1, 256] array read through zero
    offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 10 := N_0
  have h9 : t.val = 9 := by have := (flush0_3 t).mp hf; have := t.isLt; omega
  obtain rfl : t = t0_9 := Fin.ext h9
  show (cfg0.win 3).cut (grid0.coords t0_9) ((dats m 0 c).after 3 t0_9) = _
  rw [after0_3, outsAt_eq]
  have hz' : (fun a => win0_3.index t0_9 a * main_v36.ty.shape.size a) = fun _ => 0 := funext fun a => by fin_cases a <;> decide
  exact (Memref.read_access_unit_zero (Elt F) main_v36 hz' (fun a => by rw [congrFun hz' a]; simp) (result m c)).symm

set_option maxHeartbeats 4000000 in
/-- So the result array ends holding the total after the last tile. -/
theorem final_total (c : Dev nD) : (dats m 0 c).arrAt 3 cfg0.N = result m c :=
  (dats m 0 c).arrAt_eq_of_cover 3 (result m c) (flushed_eq m c) fun i =>
    ⟨t0_9, (flush0_3 t0_9).mpr rfl, by
      show i ∈ ((View.whole main_v36).slice (win0_3.rect t0_9)).set
      rw [View.set_slice_whole, Rect.mem_set_unit]
      intro a
      have h0 : (i 0 : Nat) < 1 := (i 0).isLt
      have h1 : (i 1 : Nat) < 256 := (i 1).isLt
      match a with
      | ⟨0, _⟩ => show win0_3.index t0_9 0 * win0_3.size 0 ≤ (i 0 : Nat) ∧ (i 0 : Nat) < win0_3.index t0_9 0 * win0_3.size 0 + win0_3.xsize (grid0.coords t0_9) 0
                  rw [show win0_3.index t0_9 0 * win0_3.size 0 = 0 from by decide +kernel, show win0_3.xsize (grid0.coords t0_9) 0 = 1 from by decide +kernel]; omega
      | ⟨1, _⟩ => show win0_3.index t0_9 1 * win0_3.size 1 ≤ (i 1 : Nat) ∧ (i 1 : Nat) < win0_3.index t0_9 1 * win0_3.size 1 + win0_3.xsize (grid0.coords t0_9) 1
                  rw [show win0_3.index t0_9 1 * win0_3.size 1 = 0 from by decide +kernel, show win0_3.xsize (grid0.coords t0_9) 1 = 256 from by decide +kernel]; omega⟩

end Cert.KernelIdeal.Acc

end
-- ==== Proof.Tail.lean ====
/-
  The last stage both programs share: the predictor head. It takes the 256 column totals and the 64
  outputs of the parameter network, joins them into one row of 320 numbers, applies a dense layer with
  bias, clamps below at zero, and applies a second dense layer with bias, giving four numbers. Both programs
  compute it with the same operations, so it is kept as one function and never opened.
-/
import proofs.«111640_j2396591751762_1_alg».proof.Proof.Gen.ReferenceIdeal

noncomputable section

namespace Cert.Tail

open Cert.ReferenceIdeal Cert.ReferenceIdeal.Gen Idealize.ShloMosaic

variable {F : FTy → Type} [FloatOps F]

/-- The predictor head as a function of the column totals `e`, the parameter network's output `p`, and the two
    layers' weights and biases. -/
def head (e : (⟨S1x256, .f32⟩ : BufTy).Contents (Elt F)) (p : (⟨S1x64, .f32⟩ : BufTy).Contents (Elt F))
    (q1 : (⟨S320x256, .f32⟩ : BufTy).Contents (Elt F)) (c1 : (⟨S256, .f32⟩ : BufTy).Contents (Elt F))
    (q2 : (⟨S256x4, .f32⟩ : BufTy).Contents (Elt F)) (c2 : (⟨S4, .f32⟩ : BufTy).Contents (Elt F)) :
    (⟨S1x4, .f32⟩ : BufTy).Contents (Elt F) :=
  addf (Host.dotGeneral dot_S1x256_S256x4_S1x4_1_0_0_1_n_n none
      (maximumf (addf (Host.dotGeneral dot_S1x320_S320x256_S1x256_1_0_0_1_n_n none
          (concatenate S1x320 1 [⟨S1x256, e⟩, ⟨S1x64, p⟩] concatenates_S1x256_S1x64_S1x320_d1) q1)
        (broadcastInDim S1x256 ![1] bcast_S256_S1x256_1 c1))
        (broadcastInDim S1x256 ![] bcast_S_S1x256 (constant S_ .f32 0x00000000#32))) q2)
    (broadcastInDim S1x4 ![1] bcast_S4_S1x4_1 c2)

end Cert.Tail

end
-- ==== Proof.HostSide.lean ====
/-
  The kernel program around its one region.

  Before the region the host computes the aggregated node features (a 50000 × 256 array: two rounds of
  "gather rows by source node, add them up by destination node" around a first dense layer) and reshapes
  the bias to one row. These are the same operations the reference applies, so the aggregated array is
  carried as the reference's own named stage and never opened. The region reads the aggregated array tile
  by tile (tile `t` is rows `5000 t … 5000 t + 4999`), and the whole weight matrix and bias row at every tile.
  After the region the host computes the parameter network and the predictor head, again with the
  reference's operations, from the region's result and the unchanged arguments.
-/
import proofs.«111640_j2396591751762_1_alg».proof.Proof.Gen.KernelIdeal.Frame
import proofs.«111640_j2396591751762_1_alg».proof.Proof.Gen.ReferenceIdeal.Read
import proofs.«111640_j2396591751762_1_alg».proof.Proof.Accumulate
import proofs.«111640_j2396591751762_1_alg».proof.Proof.Tail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Host

open Cert.KernelIdeal Cert.KernelIdeal.Gen

variable {F : FTy → Type} [FloatOps F]
variable (m : (ℓ : Loc nD τ sig) → Buf (Elt F) ℓ) (ρ : Dev nD → PrngReg)

/-! ## The input windows' blocks -/

/-- Tile `t` of the aggregated array starts at row block `t`; the weight matrix and the bias row are one block each. -/
theorem block_positions : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) :=
  (by decide +kernel : ∀ t : Fin grid0.N,
    (win0_0.index t 0 = t.val ∧ win0_0.index t 1 = 0) ∧ (win0_1.index t 0 = 0 ∧ win0_1.index t 1 = 0)
      ∧ (win0_2.index t 0 = 0 ∧ win0_2.index t 1 = 0))

/-- Row `r` of tile `t` is row `5000 t + r` of the aggregated array. -/
theorem rows_apply (c : Dev nD) (t : Fin cfg0.N) (x : S5000x256.Idx) (k : S50000x256.Idx)
    (hk0 : (k 0).val = 5000 * t.val + (x 0).val) (hk1 : (k 1).val = (x 1).val) :
    (iblk m c 0 t : Vec F S5000x256 .f32) x = (V m c main_v34 : S50000x256.Idx → Elt F .f32) k := by
  have hi := (block_positions t).1
  unfold iblk
  rw [View.read_apply]
  show (V m c main_v34 : S50000x256.Idx → Elt F .f32) _ = (V m c main_v34 : S50000x256.Idx → Elt F .f32) k
  refine congrArg (V m c main_v34 : S50000x256.Idx → Elt F .f32) (funext fun a => Fin.ext ?_)
  match a with
  | ⟨0, _⟩ => show win0_0.index t 0 * 5000 + 1 * (x 0).val = (k 0).val; rw [hi.1, hk0]; omega
  | ⟨1, _⟩ => show win0_0.index t 1 * 256 + 1 * (x 1).val = (k 1).val; rw [hi.2, hk1]; omega

/-- Every tile sees the whole weight matrix. -/
theorem weights_apply (c : Dev nD) (t : Fin cfg0.N) (x : S256x256.Idx) :
    (iblk m c 1 t : Vec F S256x256 .f32) x = (V m c main_arg5 : S256x256.Idx → Elt F .f32) x := by
  have hi := (block_positions t).2.1
  unfold iblk
  rw [View.read_apply]
  show (V m c main_arg5 : S256x256.Idx → Elt F .f32) _ = (V m c main_arg5 : S256x256.Idx → Elt F .f32) x
  refine congrArg (V m c main_arg5 : S256x256.Idx → Elt F .f32) (funext fun a => Fin.ext ?_)
  match a with
  | ⟨0, _⟩ => show win0_1.index t 0 * 256 + 1 * (x 0).val = (x 0).val; rw [hi.1]; omega
  | ⟨1, _⟩ => show win0_1.index t 1 * 256 + 1 * (x 1).val = (x 1).val; rw [hi.2]; omega

/-- Every tile sees the whole bias row. -/
theorem bias_apply (c : Dev nD) (t : Fin cfg0.N) (x : S1x256.Idx) :
    (iblk m c 2 t : Vec F S1x256 .f32) x = (V m c main_v35 : S1x256.Idx → Elt F .f32) x := by
  have hi := (block_positions t).2.2
  unfold iblk
  rw [View.read_apply]
  show (V m c main_v35 : S1x256.Idx → Elt F .f32) _ = (V m c main_v35 : S1x256.Idx → Elt F .f32) x
  refine congrArg (V m c main_v35 : S1x256.Idx → Elt F .f32) (funext fun a => Fin.ext ?_)
  match a with
  | ⟨0, _⟩ => show win0_2.index t 0 * 1 + 1 * (x 0).val = (x 0).val; rw [hi.1]; omega
  | ⟨1, _⟩ => show win0_2.index t 1 * 256 + 1 * (x 1).val = (x 1).val; rw [hi.2]; omega

/-! ## What the host wrote before the region -/

/-- The aggregated node features the region reads are the reference's stage of the same name: the same
    operations of the same four arguments. -/
theorem aggregated_eq (c : Dev nD) :
    (V m c main_v34 : (⟨Cert.ReferenceIdeal.S50000x256, .f32⟩ : BufTy).Contents (Elt F))
      = Cert.ReferenceIdeal.Read.val_main_v34 (F := F) (m ((c : Thread nD τ).loc main_arg0)) (m ((c : Thread nD τ).loc main_arg1)) (m ((c : Thread nD τ).loc main_arg3)) (m ((c : Thread nD τ).loc main_arg4)) := by
  dsimp only [V, V0]
  simp only [hostOps0, hostOps0_1, hostOps0_2, List.flatten_cons, List.flatten_nil, List.append_nil, List.cons_append, List.nil_append]
  after_results_simp
  rfl

/-- The bias row the region reads is the bias argument laid out as one row. -/
theorem biasRow_eq (c : Dev nD) :
    (V m c main_v35 : S1x256.Idx → Elt F .f32) = shapeCast S1x256 (m ((c : Thread nD τ).loc main_arg6)) shapeCasts_S256_S1x256 := by
  dsimp only [V, V0]
  simp only [hostOps0, hostOps0_1, hostOps0_2, List.flatten_cons, List.flatten_nil, List.append_nil, List.cons_append, List.nil_append]
  after_results_simp
  rfl

/-! ## What the host computes after the region -/

/-- The parameter network's output, from any buffer contents the tail starts from. -/
theorem tail_params (W0 : Valuation τ sig (Elt F)) :
    StableHlo.after (List.flatten [hostOps1, hostOps1_1, hostOps1_2, hostOps1_3, hostOps1_4]) W0 (Proc.devRef .tc main_v43)
      = Cert.ReferenceIdeal.Read.val_main_v48 (F := F) (W0 (Proc.devRef .tc main_arg2)) (W0 (Proc.devRef .tc main_arg7))
          (W0 (Proc.devRef .tc main_arg8)) (W0 (Proc.devRef .tc main_arg9)) (W0 (Proc.devRef .tc main_arg10)) := by
  simp only [hostOps1, hostOps1_1, hostOps1_2, hostOps1_3, hostOps1_4, List.flatten_cons, List.flatten_nil, List.append_nil, List.cons_append, List.nil_append]
  after_results_simp
  rfl

/-- The predictor head's output, from any buffer contents the tail starts from. -/
theorem tail_head (W0 : Valuation τ sig (Elt F)) :
    StableHlo.after (List.flatten [hostOps1, hostOps1_1, hostOps1_2, hostOps1_3, hostOps1_4]) W0 (Proc.devRef .tc main_v51)
      = Cert.Tail.head (F := F) (W0 (Proc.devRef .tc main_v36))
          (Cert.ReferenceIdeal.Read.val_main_v48 (F := F) (W0 (Proc.devRef .tc main_arg2)) (W0 (Proc.devRef .tc main_arg7))
            (W0 (Proc.devRef .tc main_arg8)) (W0 (Proc.devRef .tc main_arg9)) (W0 (Proc.devRef .tc main_arg10)))
          (W0 (Proc.devRef .tc main_arg11)) (W0 (Proc.devRef .tc main_arg12)) (W0 (Proc.devRef .tc main_arg13))
          (W0 (Proc.devRef .tc main_arg14)) := by
  simp only [hostOps1, hostOps1_1, hostOps1_2, hostOps1_3, hostOps1_4, List.flatten_cons, List.flatten_nil, List.append_nil, List.cons_append, List.nil_append]
  after_results_simp
  rfl

/-- The buffer contents the tail starts from: the region's arrays as the region left them, everything else as the
    region found it. An argument no window stages is as launched. -/
theorem start_arg (c : Dev nD) (b : Ref sig .tc) (hb : ∀ w, Pipeline.arrRef spec0 w ≠ b)
    (hV : V m c b = m ((c : Thread nD τ).loc b)) :
    Pipeline.withArrays (cfgs 0).spec c (V0 m c) (fun w => ((dats m) 0 c).arrAt w (cfgs 0).N) (Proc.devRef .tc b)
      = m ((c : Thread nD τ).loc b) :=
  (Pipeline.withArrays_of_ne _ c (V0 m c) _ b hb).trans hV

/-- The region's result array, as the tail finds it, is the total after the last tile. -/
theorem start_total (c : Dev nD) :
    Pipeline.withArrays (cfgs 0).spec c (V0 m c) (fun w => ((dats m) 0 c).arrAt w (cfgs 0).N) (Proc.devRef .tc main_v36)
      = Acc.result m c :=
  (Pipeline.withArrays_arr spec0 launch0.win.arr_inj c _ _ 3).trans (Acc.final_total m c)

/-- The parameter network's output after the run. -/
theorem params_eq (c : Dev nD) :
    Pipeline.afterTail₀ cfgs (dats m) 0 (V0 m) [hostOps1, hostOps1_1, hostOps1_2, hostOps1_3, hostOps1_4] c main_v43
      = Cert.ReferenceIdeal.Read.val_main_v48 (F := F) (m ((c : Thread nD τ).loc main_arg2)) (m ((c : Thread nD τ).loc main_arg7)) (m ((c : Thread nD τ).loc main_arg8)) (m ((c : Thread nD τ).loc main_arg9)) (m ((c : Thread nD τ).loc main_arg10)) := by
  unfold Pipeline.afterTail₀
  rw [tail_params,
    start_arg m c main_arg2 (by decide) (V_main_arg2 m c), start_arg m c main_arg7 (by decide) (V_main_arg7 m c),
    start_arg m c main_arg8 (by decide) (V_main_arg8 m c), start_arg m c main_arg9 (by decide) (V_main_arg9 m c),
    start_arg m c main_arg10 (by decide) (V_main_arg10 m c)]

/-- The predictor head's output after the run: the head applied to the total after the last tile. -/
theorem head_eq (c : Dev nD) :
    Pipeline.afterTail₀ cfgs (dats m) 0 (V0 m) [hostOps1, hostOps1_1, hostOps1_2, hostOps1_3, hostOps1_4] c main_v51
      = Cert.Tail.head (F := F) (Acc.result m c)
          (Cert.ReferenceIdeal.Read.val_main_v48 (F := F) (m ((c : Thread nD τ).loc main_arg2)) (m ((c : Thread nD τ).loc main_arg7)) (m ((c : Thread nD τ).loc main_arg8)) (m ((c : Thread nD τ).loc main_arg9)) (m ((c : Thread nD τ).loc main_arg10)))
          (m ((c : Thread nD τ).loc main_arg11)) (m ((c : Thread nD τ).loc main_arg12)) (m ((c : Thread nD τ).loc main_arg13)) (m ((c : Thread nD τ).loc main_arg14)) := by
  unfold Pipeline.afterTail₀
  rw [tail_head, start_total m c,
    start_arg m c main_arg2 (by decide) (V_main_arg2 m c), start_arg m c main_arg7 (by decide) (V_main_arg7 m c),
    start_arg m c main_arg8 (by decide) (V_main_arg8 m c), start_arg m c main_arg9 (by decide) (V_main_arg9 m c),
    start_arg m c main_arg10 (by decide) (V_main_arg10 m c), start_arg m c main_arg11 (by decide) (V_main_arg11 m c),
    start_arg m c main_arg12 (by decide) (V_main_arg12 m c), start_arg m c main_arg13 (by decide) (V_main_arg13 m c),
    start_arg m c main_arg14 (by decide) (V_main_arg14 m c)]

/-! ## The run, read -/

/-- Every weakly fair execution of the kernel program terminates with the three results at the total after the
    last tile, the parameter network's output and the predictor head of the two, and the arguments unchanged. -/
theorem run : θ_run defs (onTc (τ := τ) (main (F := F))) ⟨m, fun _ => 0, ρ⟩ (fun r => ∀ c : Dev nD,
      r.2.mem ((c.tc : Thread nD τ).loc main_v36) = Acc.result m c
      ∧ r.2.mem ((c.tc : Thread nD τ).loc main_v43)
          = Cert.ReferenceIdeal.Read.val_main_v48 (F := F) (m ((c : Thread nD τ).loc main_arg2)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v51)
          = Cert.Tail.head (F := F) (Acc.result m c)
              (Cert.ReferenceIdeal.Read.val_main_v48 (F := F) (m ((c : Thread nD τ).loc main_arg2)) (m ((c : Thread nD τ).loc main_arg7)) (m ((c : Thread nD τ).loc main_arg8)) (m ((c : Thread nD τ).loc main_arg9)) (m ((c : Thread nD τ).loc main_arg10)))
              (m ((c : Thread nD τ).loc main_arg11)) (m ((c : Thread nD τ).loc main_arg12)) (m ((c : Thread nD τ).loc main_arg13)) (m ((c : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 3).trans (Acc.final_total m c),
      ((h c).2 main_v43 (Pipeline.mem_restRefs_of main_v43 (by decide) (by decide))).trans (params_eq m c),
      ((h c).2 main_v51 (Pipeline.mem_restRefs_of main_v51 (by decide) (by decide))).trans (head_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 1).trans ((((dats m) 0 c).arrAt_in 1 rfl _).trans ((A_eq m c 1).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.Host

end
-- ==== Proof.Sums.lean ====
/-
  The one algebraic law of this certificate: summing a quantity over the 50000 rows of a matrix is the
  same as summing it tile by tile — ten tiles of 5000 consecutive rows, the tile sums added one after the
  other to a running total that starts at zero. Only commutativity and associativity of addition are
  used, so the law holds on the extended reals without any finiteness assumption.

  Also here: what one row contributes to one output column (a dot product with a column of the weight
  matrix, plus a bias, clamped below at zero), as a function of a row number.
-/
import Idealize.ShloMosaic.PureOps.Ideal
import Idealize.ShloMosaic.Lib.ValueIdx

noncomputable section

open scoped BigOperators

namespace Cert.Sums

variable {M : Type*} [AddCommMonoid M]

/-- The running total after tile `n`: start from `z`, add the tile sums `s 0, s 1, …, s n` in order. -/
def runSum (z : M) (s : ℕ → M) : ℕ → M
  | 0 => z + s 0
  | n + 1 => runSum z s n + s (n + 1)

/-- The running total is the start value plus the sum of the tile sums so far. -/
theorem runSum_eq (z : M) (s : ℕ → M) (n : ℕ) : runSum z s n = z + ∑ t ∈ Finset.range (n + 1), s t := by
  induction n with
  | zero => simp [runSum]
  | succ n ih => rw [runSum, ih, Finset.sum_range_succ _ (n + 1), add_assoc]

/-- `T` tiles of `R` consecutive numbers each are the first `T * R` numbers. -/
theorem sum_tiles (f : ℕ → M) (R : ℕ) : ∀ T : ℕ,
    ∑ t ∈ Finset.range T, ∑ r ∈ Finset.range R, f (R * t + r) = ∑ n ∈ Finset.range (T * R), f n
  | 0 => by simp
  | T + 1 => by
    rw [Finset.sum_range_succ, sum_tiles f R T, Nat.succ_mul, Finset.sum_range_add, Nat.mul_comm R T]

/-- One row's contribution to output column `j`: the row's dot product with column `j` of the weights, plus the
    bias of that column, clamped below at zero. -/
def node (A : ℕ → Fin 256 → EReal) (W : Fin 256 → Fin 256 → EReal) (b : Fin 256 → EReal) (n : ℕ) (j : Fin 256) : EReal :=
  max ((∑ k : Fin 256, A n k * W k j) + b j) 0

/-- The contributions of the 5000 rows of tile `t`. -/
def tileSum (A : ℕ → Fin 256 → EReal) (W : Fin 256 → Fin 256 → EReal) (b : Fin 256 → EReal) (t : ℕ) (j : Fin 256) : EReal :=
  ∑ r : Fin 5000, node A W b (5000 * t + r.val) j

/-- Ten tiles accumulated in order from zero give zero plus the sum over all 50000 rows. -/
theorem tiles_eq_rows (A : ℕ → Fin 256 → EReal) (W : Fin 256 → Fin 256 → EReal) (b : Fin 256 → EReal) (j : Fin 256) :
    runSum 0 (fun t => tileSum A W b t j) 9 = 0 + ∑ n : Fin 50000, node A W b n.val j := by
  rw [runSum_eq]
  refine congrArg (0 + ·) ?_
  have h1 : ∀ t : ℕ, tileSum A W b t j = ∑ r ∈ Finset.range 5000, node A W b (5000 * t + r) j := fun t =>
    Fin.sum_univ_eq_sum_range (fun r => node A W b (5000 * t + r) j) 5000
  simp only [h1]
  rw [sum_tiles (fun n => node A W b n j) 5000 10]
  exact (Fin.sum_univ_eq_sum_range (fun n => node A W b n j) 50000).symm

open Idealize.ShloMosaic Idealize.ShloMosaic.ValueIdx

/-- The rows of a 50000 × 256 array by row number (zero past the last row, which no sum below reaches). -/
def rowsOf (A : (⟨2, ![50000, 256]⟩ : Shape).Idx → EReal) (n : ℕ) (k : Fin 256) : EReal :=
  if h : n < 50000 then A (ix2 ⟨n, h⟩ k) else 0

/-- At a row number inside the array it is that row. -/
theorem rowsOf_lt (A : (⟨2, ![50000, 256]⟩ : Shape).Idx → EReal) (n : ℕ) (h : n < 50000) (k : Fin 256) :
    rowsOf A n k = A (ix2 ⟨n, h⟩ k) := dif_pos h

/-- The specification both programs meet: column `j` of the result is zero plus the sum, over all 50000 rows of
    `A`, of the clamped "row times column `j` of `W`, plus `b j`". -/
def colTotal (A : (⟨2, ![50000, 256]⟩ : Shape).Idx → EReal) (W : (⟨2, ![256, 256]⟩ : Shape).Idx → EReal)
    (b : (⟨1, ![256]⟩ : Shape).Idx → EReal) (j : Fin 256) : EReal :=
  0 + ∑ n : Fin 50000, node (rowsOf A) (fun k j => W (ix2 k j)) (fun j => b (ix1 j)) n.val j

/-- The ten tiles accumulated in order give the specification. -/
theorem tiles_eq_colTotal (A : (⟨2, ![50000, 256]⟩ : Shape).Idx → EReal) (W : (⟨2, ![256, 256]⟩ : Shape).Idx → EReal)
    (b : (⟨1, ![256]⟩ : Shape).Idx → EReal) (j : Fin 256) :
    runSum 0 (fun t => tileSum (rowsOf A) (fun k j => W (ix2 k j)) (fun j => b (ix1 j)) t j) 9 = colTotal A W b j :=
  tiles_eq_rows _ _ _ j

end Cert.Sums

end
-- ==== Proof.Payload.lean ====
/-
  The kernel body's arithmetic read at one entry, on the extended reals.

  The body keeps a running row of 256 column totals. Its first value is the zero row. At every tile it
  forms, for each of the tile's 5000 rows and each column `j`, the row's dot product with column `j` of the
  weight block, adds the bias of column `j`, clamps the result below at zero, sums these over the tile's rows
  and adds the sum to the running total of column `j`. Changing a number's float format does nothing on the
  extended reals, so the narrowing of both matrix operands before the product disappears.
-/
import proofs.«111640_j2396591751762_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The row the running total starts from is zero in every column. -/
theorem zeroRow_apply (i : S1x256.Idx) : (k0_pay1 (F := Ideal)) i = 0 := by
  unfold k0_pay1
  try dsimp only
  rw [shapeCast_self]
  exact Ideal.ofBits_zero_f32

/-- The tile's matrix product at row `r`, column `j`: the sum over the 256 shared positions of the products. -/
theorem product_apply (a : FVec Ideal S5000x256 .bf16) (w : FVec Ideal S256x256 .bf16) (r : Fin 5000) (j : Fin 256) :
    matmul dot_S5000x256_S256x256_S5000x256_1_0_0_1_n_n none a w (constant S5000x256 .f32 0x00000000#32) (ix2 r j)
      = ∑ k : Fin 256, a (ix2 r k) * w (ix2 k j) := by
  simp only [matmul]
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 r j)
      ((contrEquiv1 dot_S5000x256_S256x256_S5000x256_1_0_0_1_n_n 256 rfl rfl).symm k) = ix2 r k :=
    funext fun ax => Fin.ext (by
      match ax with
      | ⟨0, _⟩ =>
        show (dot_S5000x256_S256x256_S5000x256_1_0_0_1_n_n.lhsIdx (ix2 r j) _ 0).val = r.val
        unfold DotDims.lhsIdx
        rw [dif_neg (show ¬(0 : Fin S5000x256.rank) ∈ dot_S5000x256_S256x256_S5000x256_1_0_0_1_n_n.lhsBatch by decide),
          dif_pos (show (0 : Fin S5000x256.rank) ∈ dot_S5000x256_S256x256_S5000x256_1_0_0_1_n_n.lhsNonContracting by decide)]
        rfl
      | ⟨1, _⟩ =>
        exact (dot_S5000x256_S256x256_S5000x256_1_0_0_1_n_n.lhsIdx_val_of_single rfl (ix2 r j) _).trans hk)
  have er : dot_S5000x256_S256x256_S5000x256_1_0_0_1_n_n.rhsIdx (ix2 r j)
      ((contrEquiv1 dot_S5000x256_S256x256_S5000x256_1_0_0_1_n_n 256 rfl rfl).symm k) = ix2 k j :=
    funext fun ax => Fin.ext (by
      match ax with
      | ⟨0, _⟩ =>
        exact (dot_S5000x256_S256x256_S5000x256_1_0_0_1_n_n.rhsIdx_val_of_single rfl (ix2 r j) _).trans hk
      | ⟨1, _⟩ =>
        show (dot_S5000x256_S256x256_S5000x256_1_0_0_1_n_n.rhsIdx (ix2 r j) _ 1).val = j.val
        unfold DotDims.rhsIdx
        rw [dif_neg (show ¬(1 : Fin S256x256.rank) ∈ dot_S5000x256_S256x256_S5000x256_1_0_0_1_n_n.rhsBatch by decide),
          dif_pos (show (1 : Fin S256x256.rank) ∈ dot_S5000x256_S256x256_S5000x256_1_0_0_1_n_n.rhsNonContracting by decide)]
        rfl)
  rw [el, er]

/-- Summing a tile-shaped array over its rows, read at column `j`. -/
theorem rowSum_apply (src : FVec Ideal S5000x256 .f32) (j : Fin 256) :
    multiReduction .add [0] S256 src 0x00000000#32 reduces_S5000x256_S256 (.inl rfl) rfl (ix1 j)
      = ∑ r : Fin 5000, src (ix2 r j) := by
  refine (Ideal.multiReduction_add_single src 0x00000000#32 reduces_S5000x256_S256 (.inl rfl) rfl (ix1 j)).trans ?_
  refine Finset.sum_congr rfl fun (r : Fin 5000) _ => ?_
  exact congrArg src (funext fun ax => Fin.ext (by match ax with | ⟨0, _⟩ => rfl | ⟨1, _⟩ => rfl))

/-- The new running total in column `j`: the old total there, plus the sum over the tile's rows of the clamped
    "row times weight column, plus bias". -/
theorem newTotal_apply (x0 : FVec Ideal S5000x256 .f32) (x1 : FVec Ideal S256x256 .f32) (x2 xs : FVec Ideal S1x256 .f32)
    (j : Fin 256) :
    k0_pay2 (F := Ideal) x0 x1 x2 xs (ix2 (0 : Fin 1) j)
      = xs (ix2 (0 : Fin 1) j)
        + ∑ r : Fin 5000, max ((∑ k : Fin 256, x0 (ix2 r k) * x1 (ix2 k j)) + x2 (ix2 (0 : Fin 1) j)) 0 := by
  unfold k0_pay2
  try dsimp only
  simp only [shapeCast_self]
  rw [addf_apply, shapeCast_a_1a_apply, rowSum_apply]
  refine congrArg (xs (ix2 (0 : Fin 1) j) + ·) (Finset.sum_congr rfl fun r _ => ?_)
  rw [maximumf_apply, addf_apply, product_apply, broadcastTo_1b_ab_apply, broadcast_apply]
  show max ((∑ k : Fin 256, x0 (ix2 r k) * x1 (ix2 k j)) + x2 (ix2 (0 : Fin 1) j)) (Ideal.ofBits .f32 0x00000000#32) = _
  rw [Ideal.ofBits_zero_f32]

end Cert.KernelIdeal.Pay

end
-- ==== Proof.KernelTotal.lean ====
/-
  The kernel's result array on the extended reals, entry by entry.

  Column `j` of the total after the last tile is zero plus, tile after tile, the sum over the tile's rows of the
  clamped "row of the aggregated array times column `j` of the weights, plus the bias of column `j`". Regrouped
  (a sum over ten tiles of 5000 rows is the sum over 50000 rows), that is the specification `colTotal`.
-/
import proofs.«111640_j2396591751762_1_alg».proof.Proof.Sums
import proofs.«111640_j2396591751762_1_alg».proof.Proof.Payload
import proofs.«111640_j2396591751762_1_alg».proof.Proof.HostSide
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx

namespace Cert.KernelIdeal.Total

open Cert.KernelIdeal Cert.KernelIdeal.Gen

variable (m : (ℓ : Loc nD τ sig) → Buf (Elt Ideal) ℓ)

/-- The aggregated node features as the region finds them. -/
def agg (c : Dev nD) : (⟨2, ![50000, 256]⟩ : Shape).Idx → EReal := V m c main_v34
/-- The weight matrix as the region finds it. -/
def wts (c : Dev nD) : (⟨2, ![256, 256]⟩ : Shape).Idx → EReal := V m c main_arg5
/-- The bias as the region finds it, read off its one row. -/
def bias (c : Dev nD) : (⟨1, ![256]⟩ : Shape).Idx → EReal :=
  fun i => (V m c main_v35 : (⟨2, ![1, 256]⟩ : Shape).Idx → EReal) (ix2 (0 : Fin 1) (i 0))

set_option maxHeartbeats 4000000 in
/-- One tile's column sum, written over the tile's three blocks `x0`, `x1`, `x2`, is the specification's tile sum. -/
theorem tile_eq (c : Dev nD) (t : Fin cfg0.N) (j : Fin 256)
    (x0 : FVec Ideal S5000x256 .f32) (x1 : FVec Ideal S256x256 .f32) (x2 : FVec Ideal S1x256 .f32)
    (h0 : x0 = iblk m c 0 t) (h1 : x1 = iblk m c 1 t) (h2 : x2 = iblk m c 2 t) :
    (∑ r : Fin 5000, max ((∑ k : Fin 256, x0 (ix2 r k) * x1 (ix2 k j)) + x2 (ix2 (0 : Fin 1) j)) 0)
      = Cert.Sums.tileSum (Cert.Sums.rowsOf (agg m c)) (fun k j => wts m c (ix2 k j)) (fun j => bias m c (ix1 j)) t.val j := by
  have hN : cfg0.N = 10 := N_0
  unfold Cert.Sums.tileSum Cert.Sums.node
  refine Finset.sum_congr rfl fun r _ => ?_
  have hr : 5000 * t.val + r.val < 50000 := by have := t.isLt; have := r.isLt; omega
  have e0 : ∀ k : Fin 256, x0 (ix2 r k) = Cert.Sums.rowsOf (agg m c) (5000 * t.val + r.val) k := fun k => by
    rw [Cert.Sums.rowsOf_lt _ _ hr, h0]
    exact Host.rows_apply m c t (ix2 r k) (ix2 ⟨5000 * t.val + r.val, hr⟩ k) rfl rfl
  have e1 : ∀ k : Fin 256, x1 (ix2 k j) = wts m c (ix2 k j) := fun k => by
    rw [h1]
    exact Host.weights_apply m c t (ix2 k j)
  have e2 : x2 (ix2 (0 : Fin 1) j) = bias m c (ix1 j) := by
    rw [h2]
    exact Host.bias_apply m c t (ix2 (0 : Fin 1) j)
  simp only [e0, e1, e2]

set_option maxHeartbeats 4000000 in
/-- Column `j` of the running total after tile `n`: the tiles' sums accumulated in order from zero. -/
theorem total_apply (c : Dev nD) (j : Fin 256) : ∀ (n : ℕ) (h : n < cfg0.N),
    (Acc.total m c n h : (⟨2, ![1, 256]⟩ : Shape).Idx → EReal) (ix2 (0 : Fin 1) j)
      = Cert.Sums.runSum 0 (fun t => Cert.Sums.tileSum (Cert.Sums.rowsOf (agg m c)) (fun k j => wts m c (ix2 k j))
          (fun j => bias m c (ix1 j)) t j) n
  | 0, h => by
    refine (Pay.newTotal_apply (iblk m c 0 ⟨0, h⟩) (iblk m c 1 ⟨0, h⟩) (iblk m c 2 ⟨0, h⟩) k0_pay1 j).trans ?_
    rw [Pay.zeroRow_apply]
    exact congrArg (0 + ·) (tile_eq m c ⟨0, h⟩ j (iblk m c 0 ⟨0, h⟩) (iblk m c 1 ⟨0, h⟩) (iblk m c 2 ⟨0, h⟩) rfl rfl rfl)
  | n + 1, h => by
    refine (Pay.newTotal_apply (iblk m c 0 ⟨n + 1, h⟩) (iblk m c 1 ⟨n + 1, h⟩) (iblk m c 2 ⟨n + 1, h⟩)
      (Acc.total m c n (Nat.lt_of_succ_lt h)) j).trans ?_
    exact congrArg₂ (· + ·) (total_apply c j n (Nat.lt_of_succ_lt h))
      (tile_eq m c ⟨n + 1, h⟩ j (iblk m c 0 ⟨n + 1, h⟩) (iblk m c 1 ⟨n + 1, h⟩) (iblk m c 2 ⟨n + 1, h⟩) rfl rfl rfl)

/-- The result array, column `j`, is the specification of what the region found. -/
theorem result_apply (c : Dev nD) (j : Fin 256) :
    (Acc.result m c : (⟨2, ![1, 256]⟩ : Shape).Idx → EReal) (ix2 (0 : Fin 1) j)
      = Cert.Sums.colTotal (agg m c) (wts m c) (bias m c) j :=
  (total_apply m c j 9 _).trans (Cert.Sums.tiles_eq_colTotal _ _ _ j)

/-- The same over the program's arguments: the aggregated array is the reference's stage, the weights and the bias
    are the arguments themselves. -/
theorem result_spec (c : Dev nD) (u : Fin 1) (j : Fin 256) :
    (Acc.result m c : (⟨2, ![1, 256]⟩ : Shape).Idx → EReal) (ix2 u j)
      = Cert.Sums.colTotal
          (Cert.ReferenceIdeal.Read.val_main_v34 (F := Ideal) (m ((c : Thread nD τ).loc main_arg0))
            (m ((c : Thread nD τ).loc main_arg1)) (m ((c : Thread nD τ).loc main_arg3)) (m ((c : Thread nD τ).loc main_arg4)))
          (m ((c : Thread nD τ).loc main_arg5)) (m ((c : Thread nD τ).loc main_arg6)) j := by
  obtain rfl : u = 0 := Subsingleton.elim _ _
  have hA : agg m c = Cert.ReferenceIdeal.Read.val_main_v34 (F := Ideal) (m ((c : Thread nD τ).loc main_arg0))
      (m ((c : Thread nD τ).loc main_arg1)) (m ((c : Thread nD τ).loc main_arg3)) (m ((c : Thread nD τ).loc main_arg4)) :=
    Host.aggregated_eq m c
  have hW : wts m c = m ((c : Thread nD τ).loc main_arg5) := V_main_arg5 m c
  have hB : bias m c = m ((c : Thread nD τ).loc main_arg6) := funext fun i => by
    obtain ⟨k, rfl⟩ : ∃ k : Fin 256, i = ix1 k := ⟨i 0, eq_ix1 i⟩
    show (V m c main_v35 : (⟨2, ![1, 256]⟩ : Shape).Idx → EReal) (ix2 (0 : Fin 1) k) = _
    rw [Host.biasRow_eq m c]
    exact shapeCast_a_1a_apply _ _ (0 : Fin 1) k
  rw [result_apply, hA, hW, hB]

end Cert.KernelIdeal.Total

end
-- ==== Proof.RefTotal.lean ====
/-
  The reference's results read against the same specification.

  The reference multiplies the whole aggregated array by the weight matrix, adds the bias to every row,
  clamps below at zero and sums over the 50000 rows starting from zero: entry by entry that is `colTotal`.
  Its last result is the shared predictor head of that row and of the parameter network's output.
-/
import proofs.«111640_j2396591751762_1_alg».proof.Proof.Sums
import proofs.«111640_j2396591751762_1_alg».proof.Proof.Tail
import proofs.«111640_j2396591751762_1_alg».proof.Proof.Gen.ReferenceIdeal.Read
import Idealize.ShloMosaic.Lib.ValueIdx
import Idealize.ShloMosaic.PureOps.Ideal.Laws

noncomputable section

open scoped BigOperators
open Idealize.ShloMosaic Idealize.ShloMosaic.ValueIdx

namespace Cert.ReferenceIdeal.RefTotal

open Cert.ReferenceIdeal Cert.ReferenceIdeal.Gen Cert.ReferenceIdeal.Read

/-- The reference's first result at row `u` (there is one row), column `j`, is the specification. -/
theorem total_spec (x0 x1 : (⟨S800000, .i32⟩ : BufTy).Contents (Elt Ideal)) (x3 : (⟨S2x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (u : Fin 1) (j : Fin 256) :
    val_main_v41 (F := Ideal) x0 x1 x3 x4 x5 x6 (ix2 u j)
      = Cert.Sums.colTotal (val_main_v34 (F := Ideal) x0 x1 x3 x4) x5 x6 j := by
  rw [val_main_v41_apply, val_main_v40_apply, val_main_cst_7_apply]
  unfold Cert.Sums.colTotal
  show Ideal.ofBits .f32 0x00000000#32 + _ = _
  rw [Ideal.ofBits_zero_f32]
  refine congrArg (0 + ·) (Finset.sum_congr rfl fun n _ => ?_)
  rw [val_main_v39_apply, val_main_v38_apply, val_main_v35_apply, val_main_v37_apply, val_main_v36_apply,
    val_main_call1_v0_apply, val_main_call1_cst_apply]
  unfold Cert.Sums.node
  simp only [Cert.Sums.rowsOf_lt _ _ n.isLt]
  have e1 : ∀ k : Fin 256, lidx_main_v35 (idx_main_v40 (idx_main_v41 (ix2 u j)) n) k = ix2 ⟨n.val, n.isLt⟩ k := fun k =>
    funext fun a => Fin.ext (by match a with | ⟨0, _⟩ => rfl | ⟨1, _⟩ => rfl)
  have e2 : ∀ k : Fin 256, ridx_main_v35 (idx_main_v40 (idx_main_v41 (ix2 u j)) n) k = ix2 k j := fun k =>
    funext fun a => Fin.ext (by match a with | ⟨0, _⟩ => rfl | ⟨1, _⟩ => rfl)
  have e3 : idx_main_v36 (idx_main_v37 (idx_main_v40 (idx_main_v41 (ix2 u j)) n)) = ix1 j :=
    funext fun a => Fin.ext (by match a with | ⟨0, _⟩ => rfl)
  simp only [e1, e2, e3]
  show max ((∑ k : Fin 256, _ * _) + _) (Ideal.ofBits .f32 0x00000000#32) = max _ 0
  rw [Ideal.ofBits_zero_f32]

variable {F : FTy → Type} [FloatOps F]

/-- The reference's last result is the shared predictor head of its first two results. -/
theorem head_spec (x0 x1 : (⟨S800000, .i32⟩ : BufTy).Contents (Elt F)) (x2 : (⟨S1x16, .f32⟩ : BufTy).Contents (Elt F)) (x3 : (⟨S2x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S16x64, .f32⟩ : BufTy).Contents (Elt F)) (x8 : (⟨S64, .f32⟩ : BufTy).Contents (Elt F)) (x9 : (⟨S64x64, .f32⟩ : BufTy).Contents (Elt F)) (x10 : (⟨S64, .f32⟩ : BufTy).Contents (Elt F)) (x11 : (⟨S320x256, .f32⟩ : BufTy).Contents (Elt F)) (x12 : (⟨S256, .f32⟩ : BufTy).Contents (Elt F)) (x13 : (⟨S256x4, .f32⟩ : BufTy).Contents (Elt F)) (x14 : (⟨S4, .f32⟩ : BufTy).Contents (Elt F)) :
    val_main_v56 (F := F) x0 x1 x2 x3 x4 x5 x6 x7 x8 x9 x10 x11 x12 x13 x14
      = Cert.Tail.head (F := F) (val_main_v41 (F := F) x0 x1 x3 x4 x5 x6) (val_main_v48 (F := F) x2 x7 x8 x9 x10) x11 x12 x13 x14 := by
  unfold val_main_v56 val_main_v54 val_main_v53 val_main_v52 val_main_v50 val_main_v49 val_main_v55 val_main_v51
    val_main_call3_v0 val_main_call3_cst Cert.Tail.head
  rfl

end Cert.ReferenceIdeal.RefTotal

end
-- ==== Proof.lean ====
/-
  The kernel computes a graph readout: node features are aggregated over a graph's edges by the host, and
  the kernel then applies a dense layer with bias to every one of the 50000 aggregated rows, clamps below
  at zero and sums the rows, tile by tile (ten tiles of 5000 rows, a running total carried between
  tiles). The reference applies the same dense layer to all rows at once and sums them in one reduction.
  On the extended reals the two are the same number in every column, because addition there is commutative
  and associative (no finiteness of the inputs is needed), and a change of float format is the identity.
  The two small networks computed after the readout are the same operations in both programs.

  The three frame claims are the generated frame runs (the reference's is its generated run with the
  results dropped); no rewrite was applied when the kernel was idealized, so that claim is `True`; the value
  claim pairs the kernel's run, read result by result, with the reference's.
-/
import proofs.«111640_j2396591751762_1_alg».proof.Defs
import proofs.«111640_j2396591751762_1_alg».proof.Proof.Gen.Kernel
import proofs.«111640_j2396591751762_1_alg».proof.Proof.Gen.Kernel.Skeleton
import proofs.«111640_j2396591751762_1_alg».proof.Proof.Gen.Kernel.Launch
import proofs.«111640_j2396591751762_1_alg».proof.Proof.Gen.Kernel.Points
import proofs.«111640_j2396591751762_1_alg».proof.Proof.Gen.Kernel.Frame
import proofs.«111640_j2396591751762_1_alg».proof.Proof.Gen.KernelIdeal
import proofs.«111640_j2396591751762_1_alg».proof.Proof.Gen.KernelIdeal.Skeleton
import proofs.«111640_j2396591751762_1_alg».proof.Proof.Gen.KernelIdeal.Launch
import proofs.«111640_j2396591751762_1_alg».proof.Proof.Gen.KernelIdeal.Points
import proofs.«111640_j2396591751762_1_alg».proof.Proof.Gen.KernelIdeal.Frame
import proofs.«111640_j2396591751762_1_alg».proof.Proof.Gen.ReferenceIdeal
import proofs.«111640_j2396591751762_1_alg».proof.Proof.Gen.ReferenceIdeal.Run
import proofs.«111640_j2396591751762_1_alg».proof.Proof.Gen.ReferenceIdeal.Read
import proofs.«111640_j2396591751762_1_alg».proof.Proof.Gen.Pre_finite_inputs
import proofs.«111640_j2396591751762_1_alg».proof.Proof.HostSide
import proofs.«111640_j2396591751762_1_alg».proof.Proof.KernelTotal
import proofs.«111640_j2396591751762_1_alg».proof.Proof.RefTotal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the same three results: the column totals (the kernel's tile-by-tile total is the
    reference's one sum, column by column), the parameter network's output, and the predictor head of the two. -/
theorem algebraic : Cert.algebraic_KernelIdeal_ReferenceIdeal := by
  intro m ρ m' ρ' _ hagree
  refine ⟨fun c => Cert.KernelIdeal.Acc.result m c,
    fun c => Cert.ReferenceIdeal.Read.val_main_v48 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Tail.head (F := Ideal) (Cert.KernelIdeal.Acc.result m c)
      (Cert.ReferenceIdeal.Read.val_main_v48 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.Host.run (F := Ideal) m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6, a7, a8, a9, a10, a11, a12, a13, a14⟩ := hagree c
  have total : Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = (Cert.KernelIdeal.Acc.result m c : (⟨Cert.ReferenceIdeal.S1x256, .f32⟩ : BufTy).Contents (Elt Ideal)) := by
    funext i
    obtain ⟨u, j, rfl⟩ : ∃ (u : Fin 1) (j : Fin 256), i = ix2 u j := ⟨i 0, i 1, eq_ix2 i⟩
    exact (Cert.ReferenceIdeal.RefTotal.total_spec _ _ _ _ _ _ u j).trans (Cert.KernelIdeal.Total.result_spec m c u j).symm
  refine ⟨h0.trans ((Cert.ReferenceIdeal.Read.val_main_v41_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_),
    h1.trans ((Cert.ReferenceIdeal.Read.val_main_v48_eq (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))).trans ?_),
    (h2.trans (Cert.ReferenceIdeal.Read.val_main_v56_eq m' c)).trans
      ((Cert.ReferenceIdeal.RefTotal.head_spec (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ?_),
    hargs⟩
  · rw [a0, a1, a3, a4, a5, a6]
    exact total
  · rw [a2, a7, a8, a9, a10]
  · rw [a0, a1, a2, a3, a4, a5, a6, a7, a8, a9, a10, a11, a12, a13, a14, total]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
